-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x12820 : Shape := ⟨2, ![8192, 12820]⟩
abbrev S12820x320 : Shape := ⟨2, ![12820, 320]⟩
abbrev S2x320 : Shape := ⟨2, ![2, 320]⟩
abbrev S2 : Shape := ⟨1, ![2]⟩
abbrev S_ : Shape := ⟨0, ![]⟩

class Facts : Prop where
  bcast_S_S8192x12820 : S_.BroadcastsInDim S8192x12820 (![] : Fin 0 → Fin S8192x12820.rank)
  reducesTo_S8192x12820_S_d0_1 : S8192x12820.ReducesTo [0, 1] S_
  h_S_ : 0 < S_.numel
  bcast_S_S12820x320 : S_.BroadcastsInDim S12820x320 (![] : Fin 0 → Fin S12820x320.rank)
  reducesTo_S12820x320_S_d0_1 : S12820x320.ReducesTo [0, 1] S_
  bcast_S_S2x320 : S_.BroadcastsInDim S2x320 (![] : Fin 0 → Fin S2x320.rank)
  reducesTo_S2x320_S_d0_1 : S2x320.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  main_v18

def fn {F : FTy → Type} [FloatOps F] (main_arg0 : FVec F S8192x12820 .f32) (main_arg1 : FVec F S12820x320 .f32) (main_arg2 : FVec F S2x320 .f32) (main_arg3 : FVec F S2 .f32) : IVec S_ 1 :=
  let main_v0 : FVec F S8192x12820 .f32 := Host.absf main_arg0
  let main_cst : FVec F S_ .f32 := constant S_ .f32 0x7F800000#32
  let main_v1 : FVec F S8192x12820 .f32 := broadcastInDim S8192x12820 ![] bcast_S_S8192x12820 main_cst
  let main_v2 : IVec S8192x12820 1 := cmpf .olt main_v0 main_v1
  let main_c : IVec S_ 1 := constantI S_ 1 1#1
  let main_v3 : IVec S_ 1 := (fun x v => Host.reduce IntOp.andi x v reducesTo_S8192x12820_S_d0_1 h_S_) main_v2 main_c
  let main_v4 : FVec F S12820x320 .f32 := Host.absf main_arg1
  let main_cst_0 : FVec F S_ .f32 := constant S_ .f32 0x7F800000#32
  let main_v5 : FVec F S12820x320 .f32 := broadcastInDim S12820x320 ![] bcast_S_S12820x320 main_cst_0
  let main_v6 : IVec S12820x320 1 := cmpf .olt main_v4 main_v5
  let main_c_1 : IVec S_ 1 := constantI S_ 1 1#1
  let main_v7 : IVec S_ 1 := (fun x v => Host.reduce IntOp.andi x v reducesTo_S12820x320_S_d0_1 h_S_) main_v6 main_c_1
  let main_v8 : IVec S_ 1 := andi main_v3 main_v7
  let main_v9 : FVec F S2x320 .f32 := Host.absf main_arg2
  let main_cst_2 : FVec F S_ .f32 := constant S_ .f32 0x7F800000#32
  let main_v10 : FVec F S2x320 .f32 := broadcastInDim S2x320 ![] bcast_S_S2x320 main_cst_2
  let main_v11 : IVec S2x320 1 := cmpf .olt main_v9 main_v10
  let main_c_3 : IVec S_ 1 := constantI S_ 1 1#1
  let main_v12 : IVec S_ 1 := (fun x v => Host.reduce IntOp.andi x v reducesTo_S2x320_S_d0_1 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_v13 main_v16
-- ==== Kernel.lean ====
abbrev S8192x12820 : Shape := ⟨2, ![8192, 12820]⟩
abbrev S12820x320 : Shape := ⟨2, ![12820, 320]⟩
abbrev S2x320 : Shape := ⟨2, ![2, 320]⟩
abbrev S2 : Shape := ⟨1, ![2]⟩
abbrev S_ : Shape := ⟨0, ![]⟩
abbrev S12820x1 : Shape := ⟨2, ![12820, 1]⟩
abbrev S12820x321 : Shape := ⟨2, ![12820, 321]⟩
abbrev S320x2 : Shape := ⟨2, ![320, 2]⟩
abbrev S1x2 : Shape := ⟨2, ![1, 2]⟩
abbrev S8192x2 : Shape := ⟨2, ![8192, 2]⟩
abbrev S128x12820 : Shape := ⟨2, ![128, 12820]⟩
abbrev S128x2 : Shape := ⟨2, ![128, 2]⟩
abbrev S128x321 : Shape := ⟨2, ![128, 321]⟩
abbrev S128x320 : Shape := ⟨2, ![128, 320]⟩
abbrev S128x1 : Shape := ⟨2, ![128, 1]⟩

abbrev nBuf : Space → Nat
  | .hbm => 12
  | .vmem => 7
  | .smem => 0
  | _ => 0

abbrev bufTy : (tb : Table) → Fin (tcTables nBuf tb) → BufTy
  | .hbm, ⟨0, _⟩ => ⟨S8192x12820, .f32⟩
  | .hbm, ⟨1, _⟩ => ⟨S12820x320, .f32⟩
  | .hbm, ⟨2, _⟩ => ⟨S2x320, .f32⟩
  | .hbm, ⟨3, _⟩ => ⟨S2, .f32⟩
  | .hbm, ⟨4, _⟩ => ⟨S12820x320, .bf16⟩
  | .hbm, ⟨5, _⟩ => ⟨S_, .bf16⟩
  | .hbm, ⟨6, _⟩ => ⟨S12820x1, .bf16⟩
  | .hbm, ⟨7, _⟩ => ⟨S12820x321, .bf16⟩
  | .hbm, ⟨8, _⟩ => ⟨S320x2, .f32⟩
  | .hbm, ⟨9, _⟩ => ⟨S320x2, .bf16⟩
  | .hbm, ⟨10, _⟩ => ⟨S1x2, .f32⟩
  | .hbm, ⟨11, _⟩ => ⟨S8192x2, .f32⟩
  | .local _ .vmem, ⟨0, _⟩ => ⟨S128x12820, .f32⟩
  | .local _ .vmem, ⟨1, _⟩ => ⟨S128x12820, .f32⟩
  | .local _ .vmem, ⟨2, _⟩ => ⟨S12820x321, .bf16⟩
  | .local _ .vmem, ⟨3, _⟩ => ⟨S320x2, .bf16⟩
  | .local _ .vmem, ⟨4, _⟩ => ⟨S1x2, .f32⟩
  | .local _ .vmem, ⟨5, _⟩ => ⟨S128x2, .f32⟩
  | .local _ .vmem, ⟨6, _⟩ => ⟨S128x2, .f32⟩
  | _, _ => ⟨S8192x12820, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12820 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12820x321 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S320x2 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  bcast_S_S12820x1 : S_.BroadcastsInDim S12820x1 (![] : Fin 0 → Fin S12820x1.rank)
  concatenates_S12820x320_S12820x1_S12820x321_d1 : Shape.Concatenates [S12820x320, S12820x1] S12820x321 1
  transposes_S2x320_S320x2_1_0 : S2x320.Transposes [1, 0] S320x2
  shapeCasts_S2_S1x2 : S2.ShapeCasts S1x2
  inb_S128x12820_S128x12820_0_0 : ∀ a, (![0, 0] : Fin 2 → Nat) a + S128x12820.size a ≤ S128x12820.size a
  h_S128x12820 : 0 < S128x12820.numel
  inb_S12820x321_S12820x321_0_0 : ∀ a, (![0, 0] : Fin 2 → Nat) a + S12820x321.size a ≤ S12820x321.size a
  h_S12820x321 : 0 < S12820x321.numel
  shapeCasts_S12820x321_S12820x321 : S12820x321.ShapeCasts S12820x321
  slices_S128x321_o0_0_S128x320 : S128x321.Slices ![0, 0] S128x320
  slices_S128x321_o0_320_S128x1 : S128x321.Slices ![0, 320] S128x1
  broadcasts_S128x1_S128x320 : S128x1.Broadcasts S128x320
  inb_S320x2_S320x2_0_0 : ∀ a, (![0, 0] : Fin 2 → Nat) a + S320x2.size a ≤ S320x2.size a
  h_S320x2 : 0 < S320x2.numel
  shapeCasts_S320x2_S320x2 : S320x2.ShapeCasts S320x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  dot_S128x12820_S12820x321_S128x321_1_0_0_1_n_n_wf : DotDims.WF S128x12820 S12820x321 S128x321 [1] [0] [0] [1] [] []
  dot_S128x320_S320x2_S128x2_1_0_0_1_n_n_wf : DotDims.WF S128x320 S320x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x12820.size a ≤ S8192x12820.size a
  hwx0_0 : ∀ i : grid0.Coords, EltTy.bits .f32 = 32 ∨ (Rect.block (s := S8192x12820) S128x12820.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12820x321.size a ≤ S12820x321.size a
  hwx0_1 : ∀ i : grid0.Coords, EltTy.bits .bf16 = 32 ∨ (Rect.block (s := S12820x321) S12820x321.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S320x2.size a ≤ S320x2.size a
  hwx0_2 : ∀ i : grid0.Coords, EltTy.bits .bf16 = 32 ∨ (Rect.block (s := S320x2) S320x2.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2.size a ≤ S8192x2.size a
  hwx0_4 : ∀ i : grid0.Coords, EltTy.bits .f32 = 32 ∨ (Rect.block (s := S8192x2) S128x2.size (cc0_transform_4 i) (hinb0_4 i)).WholeWords (EltTy.packing .f32)

variable [Facts₀]

def dot_S128x12820_S12820x321_S128x321_1_0_0_1_n_n : DotDims S128x12820 S12820x321 S128x321 where
  lhsContracting := [1]
  rhsContracting := [0]
  lhsNonContracting := [0]
  rhsNonContracting := [1]
  lhsBatch := []
  rhsBatch := []
  wf := dot_S128x12820_S12820x321_S128x321_1_0_0_1_n_n_wf
def dot_S128x320_S320x2_S128x2_1_0_0_1_n_n : DotDims S128x320 S320x2 S128x2 where
  lhsContracting := [1]
  rhsContracting := [0]
  lhsNonContracting := [0]
  rhsNonContracting := [1]
  lhsBatch := []
  rhsBatch := []
  wf := dot_S128x320_S320x2_S128x2_1_0_0_1_n_n_wf

abbrev win0_0 : Pipeline.Window sig grid0 :=
  Pipeline.Window.ofSpec (Memref.whole main_arg0) S128x12820.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S12820x321.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S320x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x12820 : Shape := ⟨2, ![8192, 12820]⟩
abbrev S12820x320 : Shape := ⟨2, ![12820, 320]⟩
abbrev S2x320 : Shape := ⟨2, ![2, 320]⟩
abbrev S2 : Shape := ⟨1, ![2]⟩
abbrev S8192x320 : Shape := ⟨2, ![8192, 320]⟩
abbrev S_ : Shape := ⟨0, ![]⟩
abbrev S8192 : Shape := ⟨1, ![8192]⟩
abbrev S8192x1 : Shape := ⟨2, ![8192, 1]⟩
abbrev S320x2 : Shape := ⟨2, ![320, 2]⟩
abbrev S8192x2 : Shape := ⟨2, ![8192, 2]⟩
abbrev S1x2 : Shape := ⟨2, ![1, 2]⟩

abbrev nBuf : Space → Nat
  | .hbm => 18
  | .vmem => 0
  | .smem => 0
  | _ => 0

abbrev bufTy : (tb : Table) → Fin (tcTables nBuf tb) → BufTy
  | .hbm, ⟨0, _⟩ => ⟨S8192x12820, .f32⟩
  | .hbm, ⟨1, _⟩ => ⟨S12820x320, .f32⟩
  | .hbm, ⟨2, _⟩ => ⟨S2x320, .f32⟩
  | .hbm, ⟨3, _⟩ => ⟨S2, .f32⟩
  | .hbm, ⟨4, _⟩ => ⟨S8192x320, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x320, .f32⟩
  | .hbm, ⟨12, _⟩ => ⟨S8192x320, .f32⟩
  | .hbm, ⟨13, _⟩ => ⟨S320x2, .f32⟩
  | .hbm, ⟨14, _⟩ => ⟨S8192x2, .f32⟩
  | .hbm, ⟨15, _⟩ => ⟨S1x2, .f32⟩
  | .hbm, ⟨16, _⟩ => ⟨S8192x2, .f32⟩
  | .hbm, ⟨17, _⟩ => ⟨S8192x2, .f32⟩
  | _, _ => ⟨S8192x12820, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  reducesTo_S8192x12820_S8192_d1 : S8192x12820.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x320_0_1 : S8192x1.BroadcastsInDim S8192x320 (![0, 1] : Fin 2 → Fin S8192x320.rank)
  transposes_S2x320_S320x2_1_0 : S2x320.Transposes [1, 0] S320x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  dot_S8192x12820_S12820x320_S8192x320_1_0_0_1_n_n_wf : DotDims.WF S8192x12820 S12820x320 S8192x320 [1] [0] [0] [1] [] []
  dot_S8192x320_S320x2_S8192x2_1_0_0_1_n_n_wf : DotDims.WF S8192x320 S320x2 S8192x2 [1] [0] [0] [1] [] []

variable [Facts₀]

def dot_S8192x12820_S12820x320_S8192x320_1_0_0_1_n_n : DotDims S8192x12820 S12820x320 S8192x320 where
  lhsContracting := [1]
  rhsContracting := [0]
  lhsNonContracting := [0]
  rhsNonContracting := [1]
  lhsBatch := []
  rhsBatch := []
  wf := dot_S8192x12820_S12820x320_S8192x320_1_0_0_1_n_n_wf
def dot_S8192x320_S320x2_S8192x2_1_0_0_1_n_n : DotDims S8192x320 S320x2 S8192x2 where
  lhsContracting := [1]
  rhsContracting := [0]
  lhsNonContracting := [0]
  rhsNonContracting := [1]
  lhsBatch := []
  rhsBatch := []
  wf := dot_S8192x320_S320x2_S8192x2_1_0_0_1_n_n_wf

class Facts : Prop extends Facts₀ where

variable [Facts]
-- ==== Proof.Logits.lean ====
/-
  The function both programs compute.

  Row r of x holds the weights of 12820 words. The row's embedding is the weighted sum of the word embeddings divided by
  the row's total weight, and the two outputs are that embedding's inner products with the two rows of w, plus b:

      out (r, j) = (∑ e, ((1 / ∑ k, x (r, k)) · ∑ k, x (r, k) · emb (k, e)) · w (j, e)) + b j

  on the extended reals: the quotient is the extended reals' division, and 1 is the number the f32 word 0x3F800000
  denotes (never evaluated: both programs spell the same word).
-/
import Idealize.ShloMosaic.PureOps.Ideal
import Idealize.ShloMosaic.Lib.ValueIdx

noncomputable section

namespace Cert.Averaged

open Idealize.ShloMosaic Idealize.ShloMosaic.ValueIdx
open scoped BigOperators

/-- The dividend of the normalizer, as both programs spell it. -/
abbrev one32 : EReal := Ideal.ofBits .f32 0x3F800000#32

/-- The total weight of row r. -/
def total (x : (⟨2, ![8192, 12820]⟩ : Shape).Idx → EReal) (r : Fin 8192) : EReal :=
  ∑ k : Fin 12820, x (ix2 r k)

/-- Coordinate e of the weighted sum of the word embeddings of row r. -/
def weighted (x : (⟨2, ![8192, 12820]⟩ : Shape).Idx → EReal) (emb : (⟨2, ![12820, 320]⟩ : Shape).Idx → EReal)
    (r : Fin 8192) (e : Fin 320) : EReal :=
  ∑ k : Fin 12820, x (ix2 r k) * emb (ix2 k e)

/-- The two outputs of every row. -/
def logits (x : (⟨2, ![8192, 12820]⟩ : Shape).Idx → EReal) (emb : (⟨2, ![12820, 320]⟩ : Shape).Idx → EReal)
    (w : (⟨2, ![2, 320]⟩ : Shape).Idx → EReal) (b : (⟨1, ![2]⟩ : Shape).Idx → EReal) :
    (⟨2, ![8192, 2]⟩ : Shape).Idx → EReal :=
  fun i => (∑ e : Fin 320, (Ideal.div one32 (total x (i 0)) * weighted x emb (i 0) e) * w (ix2 (i 1) e)) + b (ix1 (i 1))

end Cert.Averaged

end
-- ==== Proof.RefLogits.lean ====
/-
  The reference computes the row-averaged logits.

  Read one operation at a time, entry (r, j) of the reference's result is the sum over e of
  ((1 / (0 + ∑ k, x (r, k))) · ∑ k, x (r, k) · emb (k, e)) · w (j, e), plus b j: its sums start from the zero word, which
  denotes 0, and 0 + s = s at every extended real.
-/
import proofs.«119606_j53541062312218_2_alg».proof.Proof.Gen.ReferenceIdeal.Read
import proofs.«119606_j53541062312218_2_alg».proof.Proof.Logits

noncomputable section

namespace Cert.Averaged

open Idealize.ShloMosaic Idealize.ShloMosaic.ValueIdx
open Cert.ReferenceIdeal Cert.ReferenceIdeal.Read
open scoped BigOperators

/-- The reference's result, as a function of its four arguments, is `logits`. -/
theorem reference_logits (x0 : (⟨S8192x12820, .f32⟩ : BufTy).Contents (Elt Ideal)) (x1 : (⟨S12820x320, .f32⟩ : BufTy).Contents (Elt Ideal))
    (x2 : (⟨S2x320, .f32⟩ : BufTy).Contents (Elt Ideal)) (x3 : (⟨S2, .f32⟩ : BufTy).Contents (Elt Ideal)) :
    val_main_v11 (F := Ideal) x0 x1 x2 x3 = logits x0 x1 x2 x3 := by
  funext i
  -- the composed index functions of the reference's layout operations, at the entry's row, column and the two summation indices
  have h1 : ∀ (e : Fin 320) (k : Fin 12820), idx_main_v1 (idx_main_v2 (idx_main_v5 (lidx_main_v8 i e))) k = ix2 (i 0) k :=
    fun e k => funext fun a => by match a with | ⟨0, _⟩ => rfl | ⟨1, _⟩ => rfl
  have h2 : ∀ (e : Fin 320) (k : Fin 12820), lidx_main_v0 (lidx_main_v8 i e) k = ix2 (i 0) k :=
    fun e k => funext fun a => by match a with | ⟨0, _⟩ => rfl | ⟨1, _⟩ => rfl
  have h3 : ∀ (e : Fin 320) (k : Fin 12820), ridx_main_v0 (lidx_main_v8 i e) k = ix2 k e :=
    fun e k => funext fun a => by match a with | ⟨0, _⟩ => rfl | ⟨1, _⟩ => rfl
  have h4 : ∀ e : Fin 320, idx_main_v7 (ridx_main_v8 i e) = ix2 (i 1) e :=
    fun e => funext fun a => by match a with | ⟨0, _⟩ => rfl | ⟨1, _⟩ => rfl
  have h5 : idx_main_v9 (idx_main_v10 i) = ix1 (i 1) :=
    funext fun a => by match a with | ⟨0, _⟩ => rfl
  rw [val_main_v11_apply, val_main_v8_apply, val_main_v10_apply, val_main_v9_apply, h5]
  unfold logits total weighted
  simp only [Ideal.addf_def]
  refine congrArg (· + x3 (ix1 (i 1))) (Finset.sum_congr rfl fun e _ => ?_)
  rw [val_main_v6_apply, val_main_v5_apply, val_main_v4_apply, val_main_v3_apply, val_main_cst_0_apply, val_main_v2_apply,
    val_main_v1_apply, val_main_cst_apply, val_main_v0_apply, val_main_v7_apply, h4]
  simp only [h1, h2, h3, Ideal.mulf_def, Ideal.hostDivf_def, Ideal.ofBits_def, Ideal.ofBits_zero_f32, zero_add]
  rfl

end Cert.Averaged

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibColsCut.lean ====
/-
  A stretch of columns cut from a matrix, read at coordinates.

  Cutting the columns off, off + 1, …, off + n - 1 out of an array of M rows and N columns (a unit-stride slice that keeps
  every row) gives an array of M rows and n columns whose entry (p, q) is entry (p, off + q) of the operand — for any
  extents and any element type. A dense row of several gates laid side by side is cut into its gates this way.
-/
import Idealize.ShloMosaic.Lib.Pipeline.Value
import Idealize.ShloMosaic.Lib.ValueIdx

noncomputable section

namespace Cert.LibColsCut

open Idealize.ShloMosaic Idealize.ShloMosaic.ValueIdx

/-- Entry (p, q) of the columns `off … off + n - 1` of `x` is entry (p, j) of `x` where `j = off + q`. -/
theorem slice_cols {M N n : ℕ} {α : Type} (off : ℕ) (x : (⟨2, ![M, N]⟩ : Shape).Idx → α)
    (h : (⟨2, ![M, N]⟩ : Shape).Slices ![0, off] ⟨2, ![M, n]⟩) (p : Fin M) (q : Fin n) (j : Fin N)
    (hj : j.val = off + q.val) :
    extractStridedSlice (⟨2, ![M, n]⟩ : Shape) ![0, off] x h (ix2 p q) = x (ix2 p j) :=
  extractStridedSlice_apply ![0, off] x h (ix2 p q) (ix2 p j) fun a => by
    match a with
    | ⟨0, _⟩ => show p.val = 0 + p.val; omega
    | ⟨1, _⟩ => show j.val = off + q.val; exact hj

end Cert.LibColsCut

end
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.BodyLogits.lean ====
/-
  The kernel body's one store, read at an entry.

  The body multiplies its 128 rows of x by the word table widened by one column, so that column 320 of the product is
  each row's contraction with that extra column and columns 0 … 319 are the row's weighted sum of embeddings; it divides
  1 by the former, scales the latter by the quotient, multiplies by the 320 × 2 matrix and adds the bias row. Every
  step is read at explicit coordinates: a change of float format is the identity on extended reals, and a matrix
  product into a zero accumulator is the plain sum of products.
-/
import proofs.«119606_j53541062312218_2_alg».proof.Proof.Gen.KernelIdeal.Skeleton
import proofs.«119606_j53541062312218_2_alg».proof.Proof.Logits
import proofs.«119606_j53541062312218_2_alg».proof.Proof.LibPlainDot
import proofs.«119606_j53541062312218_2_alg».proof.Proof.LibColsCut
import proofs.«119606_j53541062312218_2_alg».proof.Proof.LibColsJoin
import proofs.«119606_j53541062312218_2_alg».proof.Proof.LibLayout
import Idealize.ShloMosaic.Lib.Pipeline.Value
import Idealize.ShloMosaic.Lib.ValueIdx
import Idealize.ShloMosaic.PureOps.Ideal.Laws

noncomputable section

namespace Cert.Averaged

open Idealize.ShloMosaic Idealize.ShloMosaic.ValueIdx
open Cert.KernelIdeal Cert.KernelIdeal.Gen
open scoped BigOperators

/-- Entry (p, q) of the first product: row p of the block of x against column q of the widened table. -/
theorem first_product (v0 : Vec Ideal S128x12820 .f32) (v2 : Vec Ideal S12820x321 .bf16) (p : Fin 128) (q : Fin 321) :
    matmul (F := Ideal) (φ₁ := .bf16) (φ₂ := .bf16) dot_S128x12820_S12820x321_S128x321_1_0_0_1_n_n none
      (truncf (F := Ideal) (φ := .f32) .bf16 v0 bitsLt_bf16_f32) v2 (constant (F := Ideal) S128x321 .f32 0x00000000#32) (ix2 p q)
      = ∑ k : Fin 12820, v0 (ix2 p k) * v2 (ix2 k q) :=
  Cert.LibPlainDot.matmul_plain_apply dot_S128x12820_S12820x321_S128x321_1_0_0_1_n_n rfl rfl rfl rfl rfl rfl none _ _ p q

/-- Entry (p, j) of the second product: row p of the scaled sums against column j of the 320 × 2 matrix. -/
theorem second_product (a : FVec Ideal S128x320 .f32) (v12 : Vec Ideal S320x2 .bf16) (p : Fin 128) (j : Fin 2) :
    matmul (F := Ideal) (φ₁ := .bf16) (φ₂ := .bf16) dot_S128x320_S320x2_S128x2_1_0_0_1_n_n none
      (truncf (F := Ideal) (φ := .f32) .bf16 a bitsLt_bf16_f32) v12 (constant (F := Ideal) S128x2 .f32 0x00000000#32) (ix2 p j)
      = ∑ e : Fin 320, a (ix2 p e) * v12 (ix2 e j) :=
  Cert.LibPlainDot.matmul_plain_apply dot_S128x320_S320x2_S128x2_1_0_0_1_n_n rfl rfl rfl rfl rfl rfl none _ _ p j

/-- Entry (p, e) of the scaled sums: 1 over column 320 of the first product, times its column e. -/
theorem scaled_entry (c : Ideal .f32) (s : FVec Ideal S128x321 .f32) (p : Fin 128) (e : Fin 320) :
    mulf (F := Ideal) (broadcastTo S128x320 (divf (F := Ideal) (broadcast S128x1 c)
          (extractStridedSlice S128x1 ![0, 320] s slices_S128x321_o0_320_S128x1)) broadcasts_S128x1_S128x320)
        (extractStridedSlice S128x320 ![0, 0] s slices_S128x321_o0_0_S128x320) (ix2 p e)
      = Ideal.div c (s (ix2 p (Fin.last 320))) * s (ix2 p e.castSucc) := by
  rw [mulf_apply, broadcastTo_a1_ab_apply, divf_apply, broadcast_apply,
    Cert.LibColsCut.slice_cols 320 s slices_S128x321_o0_320_S128x1 p (0 : Fin 1) (Fin.last 320) rfl,
    Cert.LibColsCut.slice_cols 0 s slices_S128x321_o0_0_S128x320 p e e.castSucc (Nat.zero_add _).symm]

/-- The stored value at (p, j), from the four loaded blocks. -/
theorem body_apply (v0 : Vec Ideal S128x12820 .f32) (v2 : Vec Ideal S12820x321 .bf16) (v12 : Vec Ideal S320x2 .bf16)
    (v15 : Vec Ideal S1x2 .f32) (p : Fin 128) (j : Fin 2) :
    k0_pay1 (F := Ideal) v0 v2 v12 v15 (ix2 p j)
      = (∑ e : Fin 320, (Ideal.div one32 (∑ k : Fin 12820, v0 (ix2 p k) * v2 (ix2 k (Fin.last 320)))
            * ∑ k : Fin 12820, v0 (ix2 p k) * v2 (ix2 k e.castSucc)) * v12 (ix2 e j))
        + v15 (ix2 (0 : Fin 1) j) := by
  unfold k0_pay1
  simp only [shapeCast_self]
  rw [addf_apply, Cert.LibColsJoin.bcast_row (by decide), second_product]
  refine congrArg (· + v15 (ix2 (0 : Fin 1) j)) (Finset.sum_congr rfl fun e _ => ?_)
  rw [scaled_entry, first_product, first_product]
  rfl

/-- When the four loaded blocks hold row r of x in the block's row p, the word table with a last column of ones, the
    transposed weights and the bias row, the stored value at (p, j) is the averaged logit of row r: the contraction
    of the row with the column of ones is the row's total, since s · 1 = s at every extended real. -/
theorem logits_of_blocks (X : (⟨2, ![8192, 12820]⟩ : Shape).Idx → EReal) (E : (⟨2, ![12820, 320]⟩ : Shape).Idx → EReal)
    (W : (⟨2, ![2, 320]⟩ : Shape).Idx → EReal) (B : (⟨1, ![2]⟩ : Shape).Idx → EReal)
    (v0 : Vec Ideal S128x12820 .f32) (v2 : Vec Ideal S12820x321 .bf16) (v12 : Vec Ideal S320x2 .bf16)
    (v15 : Vec Ideal S1x2 .f32) (r : Fin 8192) (p : Fin 128) (j : Fin 2)
    (h0 : ∀ k : Fin 12820, v0 (ix2 p k) = X (ix2 r k))
    (h1 : ∀ (k : Fin 12820) (e : Fin 320), v2 (ix2 k e.castSucc) = E (ix2 k e))
    (h1' : ∀ k : Fin 12820, v2 (ix2 k (Fin.last 320)) = 1)
    (h2 : ∀ e : Fin 320, v12 (ix2 e j) = W (ix2 j e))
    (h3 : v15 (ix2 (0 : Fin 1) j) = B (ix1 j)) :
    k0_pay1 (F := Ideal) v0 v2 v12 v15 (ix2 p j) = logits X E W B (ix2 r j) := by
  rw [body_apply]
  simp only [h0, h1, h1', h2, h3, mul_one]
  rfl

end Cert.Averaged

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.Operands.lean ====
/-
  What the kernel's four operands hold when the launch begins.

  Before the launch the host widens the word table by a column of ones (a change of float format is the identity on
  extended reals, and the bf16 word 0x3F80 denotes 1), transposes the 2 × 320 weights, and lays the two biases out as
  a row. Each is read here at explicit coordinates.
-/
import proofs.«119606_j53541062312218_2_alg».proof.Proof.Gen.KernelIdeal.Frame
import proofs.«119606_j53541062312218_2_alg».proof.Proof.LibColsJoin
import proofs.«119606_j53541062312218_2_alg».proof.Proof.LibRow
import Idealize.ShloMosaic.Lib.Pipeline.Value
import Idealize.ShloMosaic.Lib.ValueIdx
import Idealize.ShloMosaic.Lib.StableHlo.Run
import Idealize.ShloMosaic.Lib.IdealHost

noncomputable section

namespace Cert.Averaged

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ)

/-- The widened table: the word embeddings and, beside them, one column holding the bf16 word of 1. -/
theorem table_eq (c : Dev nD) : (V m c main_v2 : S12820x321.Idx → EReal)
    = concatenate S12820x321 1
        [⟨S12820x320, truncf (F := Ideal) (φ := .f32) .bf16 (m ((c : Thread nD τ).loc main_arg1)) bitsLt_bf16_f32⟩,
          ⟨S12820x1, broadcastInDim S12820x1 ![] bcast_S_S12820x1 (constant (F := Ideal) S_ .bf16 0x3F80#16)⟩]
        concatenates_S12820x320_S12820x1_S12820x321_d1 := by
  dsimp only [V, hostOps0]; after_results
  all_goals rfl

/-- Columns 0 … 319 of the widened table are the word embeddings. -/
theorem table_word (c : Dev nD) (k : Fin 12820) (e : Fin 320) :
    (V m c main_v2 : S12820x321.Idx → EReal) (ix2 k e.castSucc) = m ((c : Thread nD τ).loc main_arg1) (ix2 k e) :=
  (congrFun (table_eq m c) _).trans (Cert.LibColsJoin.cat_cols_left _ _ _ k e e.castSucc rfl)

/-- Column 320 of the widened table is 1 in every row. -/
theorem table_one (c : Dev nD) (k : Fin 12820) :
    (V m c main_v2 : S12820x321.Idx → EReal) (ix2 k (Fin.last 320)) = (1 : EReal) := by
  refine (congrFun (table_eq m c) _).trans ((Cert.LibColsJoin.cat_cols_right _ _ _ k (0 : Fin 1) (Fin.last 320) rfl).trans ?_)
  rw [broadcastInDim_apply ![] bcast_S_S12820x1 _ (ix2 k (0 : Fin 1)) ix0 (fun a => a.elim0)]
  exact Ideal.ofBits_one_bf16

/-- The 320 × 2 operand is the transposed weights. -/
theorem weights_eq (c : Dev nD) : (V m c main_v4 : S320x2.Idx → EReal)
    = truncf (F := Ideal) (φ := .f32) .bf16 (transpose S320x2 [1, 0] (m ((c : Thread nD τ).loc main_arg2)) transposes_S2x320_S320x2_1_0) bitsLt_bf16_f32 := by
  dsimp only [V, hostOps0]; after_results
  all_goals rfl

/-- Its entry (e, j) is entry (j, e) of the weights. -/
theorem weights_entry (c : Dev nD) (e : Fin 320) (j : Fin 2) :
    (V m c main_v4 : S320x2.Idx → EReal) (ix2 e j) = m ((c : Thread nD τ).loc main_arg2) (ix2 j e) :=
  (congrFun (weights_eq m c) _).trans
    (transpose_apply [1, 0] (m ((c : Thread nD τ).loc main_arg2)) transposes_S2x320_S320x2_1_0 (ix2 e j) (ix2 j e)
      (fun b => match b with | ⟨0, _⟩ => rfl | ⟨1, _⟩ => rfl))

/-- The 1 × 2 operand is the biases laid out as a row. -/
theorem bias_eq (c : Dev nD) : (V m c main_v5 : S1x2.Idx → EReal)
    = shapeCast S1x2 (m ((c : Thread nD τ).loc main_arg3)) shapeCasts_S2_S1x2 := by
  dsimp only [V, hostOps0]; after_results
  all_goals rfl

/-- Its entry (0, j) is bias j. -/
theorem bias_entry (c : Dev nD) (j : Fin 2) :
    (V m c main_v5 : S1x2.Idx → EReal) (ix2 (0 : Fin 1) j) = m ((c : Thread nD τ).loc main_arg3) (ix1 j) :=
  (congrFun (bias_eq m c) _).trans (Cert.LibRow.row_apply _ shapeCasts_S2_S1x2 j)

end Cert.Averaged

end
-- ==== Proof.KernelLogits.lean ====
/-
  The kernel computes the row-averaged logits.

  Grid point t works on rows 128 t … 128 t + 127: it stages that block of x, the whole widened table, the whole
  transposed weights and the bias row, and writes back the 128 × 2 block of results. So what point t writes back is
  block t of `logits` of the four arguments, the 64 blocks cover the 8192 × 2 result, and the result array ends
  holding `logits`.
-/
import proofs.«119606_j53541062312218_2_alg».proof.Proof.Gen.KernelIdeal.Value
import proofs.«119606_j53541062312218_2_alg».proof.Proof.BodyLogits
import proofs.«119606_j53541062312218_2_alg».proof.Proof.Operands

noncomputable section

namespace Cert.Averaged

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the 64 grid points: x and the result move one block of rows per point, the other three
    operands are whole arrays staged at block (0, 0). -/
theorem index_maps : ∀ t : Fin cfg0.N, t.val < 64
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's block is row 128 t + p of the arrays. -/
def rowOf (t : Fin cfg0.N) (p : Fin 128) : Fin 8192 :=
  ⟨t.val * 128 + p.val, by have := (index_maps t).1; have := p.isLt; omega⟩

/-- The block of x at point t holds rows 128 t … 128 t + 127 of x. -/
theorem x_block (c : Dev nD) (t : Fin cfg0.N) (p : Fin 128) (k : Fin 12820) :
    iblk m c 0 t (ix2 p k) = m ((c : Thread nD τ).loc main_arg0) (ix2 (rowOf t p) k) := by
  obtain ⟨-, e0, e1, -⟩ := index_maps t
  show V m c main_arg0 (((cfg0.win 0).blk t).view.emb (ix2 p k)) = _
  rw [V_main_arg0]
  refine congrArg _ (funext fun a => Fin.ext ?_)
  match a with
  | ⟨0, _⟩ => show win0_0.index t (0 : Fin 2) * 128 + 1 * p.val = t.val * 128 + p.val; omega
  | ⟨1, _⟩ => show win0_0.index t (1 : Fin 2) * 12820 + 1 * k.val = k.val; omega

/-- The block of the widened table at any point is the whole table. -/
theorem table_block (c : Dev nD) (t : Fin cfg0.N) (k : Fin 12820) (q : Fin 321) :
    iblk m c 1 t (ix2 k q) = (V m c main_v2 : S12820x321.Idx → EReal) (ix2 k q) := by
  obtain ⟨-, -, -, e0, e1, -⟩ := index_maps t
  show V m c main_v2 (((cfg0.win 1).blk t).view.emb (ix2 k q)) = _
  refine congrArg _ (funext fun a => Fin.ext ?_)
  match a with
  | ⟨0, _⟩ => show win0_1.index t (0 : Fin 2) * 12820 + 1 * k.val = k.val; omega
  | ⟨1, _⟩ => show win0_1.index t (1 : Fin 2) * 321 + 1 * q.val = q.val; omega

/-- The block of the transposed weights at any point is the whole matrix. -/
theorem weights_block (c : Dev nD) (t : Fin cfg0.N) (e : Fin 320) (j : Fin 2) :
    iblk m c 2 t (ix2 e j) = (V m c main_v4 : S320x2.Idx → EReal) (ix2 e j) := by
  obtain ⟨-, -, -, -, -, e0, e1, -⟩ := index_maps t
  show V m c main_v4 (((cfg0.win 2).blk t).view.emb (ix2 e j)) = _
  refine congrArg _ (funext fun a => Fin.ext ?_)
  match a with
  | ⟨0, _⟩ => show win0_2.index t (0 : Fin 2) * 320 + 1 * e.val = e.val; omega
  | ⟨1, _⟩ => show win0_2.index t (1 : Fin 2) * 2 + 1 * j.val = j.val; omega

/-- The block of the bias row at any point is the whole row. -/
theorem bias_block (c : Dev nD) (t : Fin cfg0.N) (u : Fin 1) (j : Fin 2) :
    iblk m c 3 t (ix2 u j) = (V m c main_v5 : S1x2.Idx → EReal) (ix2 u j) := by
  obtain ⟨-, -, -, -, -, -, -, e0, e1, -⟩ := index_maps t
  show V m c main_v5 (((cfg0.win 3).blk t).view.emb (ix2 u j)) = _
  refine congrArg _ (funext fun a => Fin.ext ?_)
  match a with
  | ⟨0, _⟩ => show win0_3.index t (0 : Fin 2) * 1 + 1 * u.val = u.val; omega
  | ⟨1, _⟩ => show win0_3.index t (1 : Fin 2) * 2 + 1 * j.val = j.val; omega

/-- Entry (p, j) of the result's block at point t is entry (128 t + p, j) of the result. -/
theorem out_block (t : Fin cfg0.N) (p : Fin 128) (j : Fin 2) :
    ((cfg0.win 4).blk t).view.emb (ix2 p j) = ix2 (rowOf t p) j := by
  obtain ⟨-, -, -, -, -, -, -, -, -, e0, e1⟩ := index_maps t
  refine funext fun a => Fin.ext ?_
  match a with
  | ⟨0, _⟩ => show win0_4.index t (0 : Fin 2) * 128 + 1 * p.val = t.val * 128 + p.val; omega
  | ⟨1, _⟩ => show win0_4.index t (1 : Fin 2) * 2 + 1 * j.val = j.val; omega

/-- What point t writes back is block t of `logits` of the four arguments. -/
theorem flushed_logits (c : Dev nD) (t : Fin cfg0.N) :
    (dats m 0 c).flushed 4 t = ((cfg0.win 4).blk t).view.read (Elt Ideal)
      (logits (m ((c : Thread nD τ).loc main_arg0)) (m ((c : Thread nD τ).loc main_arg1))
        (m ((c : Thread nD τ).loc main_arg2)) (m ((c : Thread nD τ).loc main_arg3))) := by
  rw [Cert.KernelIdeal.Value.flushed4]
  unfold out0_4
  rw [View.canon_unit_zero zero_offsets]
  simp only [View.ld_unit_zero (S := S128x12820) zero_offsets, View.ld_unit_zero (S := S12820x321) zero_offsets,
    View.ld_unit_zero (S := S320x2) zero_offsets, View.ld_unit_zero (S := S1x2) zero_offsets]
  funext y
  show k0_pay1 (F := Ideal) (iblk m c 0 t) (iblk m c 1 t) (iblk m c 2 t) (iblk m c 3 t) y
    = logits (m ((c : Thread nD τ).loc main_arg0)) (m ((c : Thread nD τ).loc main_arg1))
        (m ((c : Thread nD τ).loc main_arg2)) (m ((c : Thread nD τ).loc main_arg3)) (((cfg0.win 4).blk t).view.emb y)
  have hy : (y : S128x2.Idx) = ix2 (y 0) (y 1) := eq_ix2 y
  refine (congrArg (k0_pay1 (F := Ideal) (iblk m c 0 t) (iblk m c 1 t) (iblk m c 2 t) (iblk m c 3 t)) hy).trans ?_
  refine (logits_of_blocks (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (rowOf t (y 0)) (y 0) (y 1)
    (fun k => x_block m c t (y 0) k)
    (fun k e => (table_block m c t k e.castSucc).trans (table_word m c k e))
    (fun k => (table_block m c t k (Fin.last 320)).trans (table_one m c k))
    (fun e => (weights_block m c t e (y 1)).trans (weights_entry m c e (y 1)))
    ((bias_block m c t (0 : Fin 1) (y 1)).trans (bias_entry m c (y 1)))).trans ?_
  exact congrArg _ ((out_block t (y 0) (y 1)).symm.trans (congrArg _ hy.symm))

/-- An index of the result is in point t's block iff each coordinate is in the block's range on its axis. -/
theorem mem_out_block (t : Fin cfg0.N) (i : S8192x2.Idx) :
    i ∈ ((cfg0.win 4).blk t).view.set ↔ ∀ a : Fin 2, win0_4.index t a * S128x2.size a ≤ (i a).val ∧ (i a).val < win0_4.index t a * S128x2.size a + S128x2.size a := by
  show i ∈ ((View.whole main_v6).slice (win0_4.rect t)).set ↔ _
  rw [View.set_slice_whole, Rect.mem_set_unit]
  exact Iff.rfl

/-- Every entry of the result is in the block of the point its row falls in. -/
theorem out_covered (i : S8192x2.Idx) :
    ∃ t : Fin cfg0.N, (cfg0.win 4).flush t = true ∧ i ∈ ((cfg0.win 4).blk t).view.set := by
  have hi0 : (i 0).val < 8192 := (i 0).isLt
  have hi1 : (i 1).val < 2 := (i 1).isLt
  have hN : cfg0.N = 64 := N_0
  let t : Fin cfg0.N := ⟨(i 0).val / 128, by rw [hN]; omega⟩
  obtain ⟨-, -, -, -, -, -, -, -, -, e0, e1⟩ := index_maps t
  have ht : t.val = (i 0).val / 128 := rfl
  refine ⟨t, flush0_4 t, ?_⟩
  rw [mem_out_block]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 2 ≤ (i 1).val ∧ (i 1).val < win0_4.index t (1 : Fin 2) * 2 + 2; omega

/-- The result array after the run is `logits` of the four arguments. -/
theorem final_logits (c : Dev nD) :
    (dats m 0 c).arrAt 4 cfg0.N = logits (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_logits m c t) out_covered

/-- Every weakly fair execution of the kernel's program ends with the result at `logits` of the arguments and the
    arguments unchanged. -/
theorem run_logits : θ_run defs (onTc (τ := τ) (main (F := Ideal))) ⟨m, fun _ => 0, ρ⟩ fun r => ∀ c : Dev nD,
      r.2.mem ((c : Thread nD τ).loc main_v6) = logits (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_logits m c), (h c).2⟩)
    (Cert.KernelIdeal.Value.run_blocks m ρ)

end Cert.Averaged

end
-- ==== Proof.lean ====
/-
  A bag-of-words classifier: each of 8192 rows of x weighs 12820 words; the row's embedding is the weighted sum of
  the word embeddings divided by the row's total weight, and the result is that embedding's inner products with the
  two rows of w, plus b.

  The reference computes the total weight as a sum of its own (started from zero) and the weighted sum as a matrix
  product. The kernel appends a column of ones to the word table, so that ONE matrix product per block of 128 rows
  yields the weighted sum in columns 0 … 319 and the total weight in column 320. On the extended reals the two agree
  entry by entry with no side condition: s · 1 = s and 0 + s = s hold at every extended real, a change of float format
  is the identity, and both programs then form the same quotient, the same products and the same sums
  (`Cert.Averaged.logits`). The kernel's 64 blocks of 128 rows cover the 8192 rows of the result.

  The three programs run without fault and leave their arguments unchanged; the kernel's idealization rewrote no
  operation, so there is nothing to preserve.
-/
import proofs.«119606_j53541062312218_2_alg».proof.Defs
import proofs.«119606_j53541062312218_2_alg».proof.Proof.Gen.Kernel
import proofs.«119606_j53541062312218_2_alg».proof.Proof.Gen.Kernel.Skeleton
import proofs.«119606_j53541062312218_2_alg».proof.Proof.Gen.Kernel.Launch
import proofs.«119606_j53541062312218_2_alg».proof.Proof.Gen.Kernel.Points
import proofs.«119606_j53541062312218_2_alg».proof.Proof.Gen.Kernel.Frame
import proofs.«119606_j53541062312218_2_alg».proof.Proof.Gen.KernelIdeal
import proofs.«119606_j53541062312218_2_alg».proof.Proof.Gen.KernelIdeal.Skeleton
import proofs.«119606_j53541062312218_2_alg».proof.Proof.Gen.KernelIdeal.Launch
import proofs.«119606_j53541062312218_2_alg».proof.Proof.Gen.KernelIdeal.Points
import proofs.«119606_j53541062312218_2_alg».proof.Proof.Gen.KernelIdeal.Frame
import proofs.«119606_j53541062312218_2_alg».proof.Proof.Gen.ReferenceIdeal
import proofs.«119606_j53541062312218_2_alg».proof.Proof.Gen.Pre_finite_inputs
import proofs.«119606_j53541062312218_2_alg».proof.Proof.Gen.KernelIdeal.Value
import proofs.«119606_j53541062312218_2_alg».proof.Proof.Gen.ReferenceIdeal.Run
import proofs.«119606_j53541062312218_2_alg».proof.Proof.Gen.ReferenceIdeal.Read
import proofs.«119606_j53541062312218_2_alg».proof.Proof.RefLogits
import proofs.«119606_j53541062312218_2_alg».proof.Proof.KernelLogits
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a sequence of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, both programs end with the result at the row-averaged logits of
    those arguments. -/
theorem algebraic : Cert.algebraic_KernelIdeal_ReferenceIdeal := by
  intro m ρ m' ρ' _ hagree
  refine ⟨_, Cert.Averaged.run_logits m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v11_eq _ _ _ _).trans (Cert.Averaged.reference_logits _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
